-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x4096x1024 : Shape := ⟨3, ![8, 4096, 1024]⟩
abbrev S8x4096 : Shape := ⟨2, ![8, 4096]⟩
abbrev S8x1024 : Shape := ⟨2, ![8, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x4096 : S_.BroadcastsInDim S8x4096 (![] : Fin 0 → Fin S8x4096.rank)
  reducesTo_S8x4096_S_d0_1 : S8x4096.ReducesTo [0, 1] S_
  bcast_S_S8x1024 : S_.BroadcastsInDim S8x1024 (![] : Fin 0 → Fin S8x1024.rank)
  reducesTo_S8x1024_S_d0_1 : S8x1024.ReducesTo [0, 1] S_

variable [Facts]

def fn_part1 {F : FTy → Type} [FloatOps F] (main_arg4 : FVec F S8x1024 .f32) (main_v13 : IVec S_ 1) (main_v16 : IVec S8x4096x1024 1) : IVec S_ 1 :=
  let main_c_5 : IVec S_ 1 := constantI S_ 1 1#1
  let main_v17 : IVec S_ 1 := (fun x v => Host.reduce IntOp.andi x v reducesTo_S8x4096x1024_S_d0_1_2 h_S_) main_v16 main_c_5
  let main_v18 : IVec S_ 1 := andi main_v13 main_v17
  let main_v19 : FVec F S8x1024 .f32 := Host.absf main_arg4
  let main_cst_6 : FVec F S_ .f32 := constant S_ .f32 0x7F800000#32
  let main_v20 : FVec F S8x1024 .f32 := broadcastInDim S8x1024 ![] bcast_S_S8x1024 main_cst_6
  let main_v21 : IVec S8x1024 1 := cmpf .olt main_v19 main_v20
  let main_c_7 : IVec S_ 1 := constantI S_ 1 1#1
  let main_v22 : IVec S_ 1 := (fun x v => Host.reduce IntOp.andi x v reducesTo_S8x1024_S_d0_1 h_S_) main_v21 main_c_7
  let main_v23 : IVec S_ 1 := andi main_v18 main_v22
  main_v23

def fn {F : FTy → Type} [FloatOps F] (main_arg0 : FVec F S8x2048x1024 .f32) (main_arg1 : FVec F S8x4096x1024 .f32) (main_arg2 : FVec F S8x4096 .f32) (main_arg3 : FVec F S8x4096x1024 .f32) (main_arg4 : FVec F S8x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S8x4096 .f32 := Host.absf main_arg2
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_v14 : FVec F S8x4096x1024 .f32 := Host.absf main_arg3
  let main_cst_4 : FVec F S_ .f32 := constant S_ .f32 0x7F800000#32
  let main_v15 : FVec F S8x4096x1024 .f32 := broadcastInDim S8x4096x1024 ![] bcast_S_S8x4096x1024 main_cst_4
  let main_v16 : IVec S8x4096x1024 1 := cmpf .olt main_v14 main_v15
  fn_part1 (F := F) main_arg4 main_v13 main_v16
-- ==== Kernel.lean ====
abbrev S8x2048x1024 : Shape := ⟨3, ![8, 2048, 1024]⟩
abbrev S8x4096x1024 : Shape := ⟨3, ![8, 4096, 1024]⟩
abbrev S8x4096 : Shape := ⟨2, ![8, 4096]⟩
abbrev S8x1024 : Shape := ⟨2, ![8, 1024]⟩
abbrev S8x1x4096 : Shape := ⟨3, ![8, 1, 4096]⟩
abbrev S8x1x1024 : Shape := ⟨3, ![8, 1, 1024]⟩
abbrev S1x1024x1024 : Shape := ⟨3, ![1, 1024, 1024]⟩
abbrev S1x512x1024 : Shape := ⟨3, ![1, 512, 1024]⟩
abbrev S1x1x512 : Shape := ⟨3, ![1, 1, 512]⟩
abbrev S1x1x1024 : Shape := ⟨3, ![1, 1, 1024]⟩
abbrev S1024x1024 : Shape := ⟨2, ![1024, 1024]⟩
abbrev S512x1024 : Shape := ⟨2, ![512, 1024]⟩
abbrev S1024x512 : Shape := ⟨2, ![1024, 512]⟩
abbrev S1x512 : Shape := ⟨2, ![1, 512]⟩
abbrev S1x1024 : Shape := ⟨2, ![1, 1024]⟩

abbrev nBuf : Space → Nat
  | .hbm => 11
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S8x4096x1024, .f32⟩
  | .hbm, ⟨2, _⟩ => ⟨S8x4096, .f32⟩
  | .hbm, ⟨3, _⟩ => ⟨S8x4096x1024, .f32⟩
  | .hbm, ⟨4, _⟩ => ⟨S8x1024, .f32⟩
  | .hbm, ⟨5, _⟩ => ⟨S8x2048x1024, .bf16⟩
  | .hbm, ⟨6, _⟩ => ⟨S8x4096x1024, .bf16⟩
  | .hbm, ⟨7, _⟩ => ⟨S8x4096x1024, .bf16⟩
  | .hbm, ⟨8, _⟩ => ⟨S8x1x4096, .f32⟩
  | .hbm, ⟨9, _⟩ => ⟨S8x1x1024, .f32⟩
  | .hbm, ⟨10, _⟩ => ⟨S8x2048x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x1x512, .f32⟩
  | .local _ .vmem, ⟨5, _⟩ => ⟨S1x1x512, .f32⟩
  | .local _ .vmem, ⟨6, _⟩ => ⟨S1x512x1024, .bf16⟩
  | .local _ .vmem, ⟨7, _⟩ => ⟨S1x512x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_18 : BitVec 32 := 0#32
  let v25 : BitVec 1 := Scalar.cmpi .ne v24 c0_i32_18
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  bitsLt_bf16_f32 : FTy.bits .bf16 < FTy.bits .f32
  shapeCasts_S8x4096_S8x1x4096 : S8x4096.ShapeCasts S8x1x4096
  shapeCasts_S8x1024_S8x1x1024 : S8x1024.ShapeCasts S8x1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S1024x512 : S1x512.Broadcasts S1024x512
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  shapeCasts_S1024x1024_S1x1024x1024 : S1024x1024.ShapeCasts S1x1024x1024
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .bf16 = 32 ∨ (Rect.block (s := S8x2048x1024) S1x1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x4096x1024.size a
  hwx0_1 : ∀ i : grid0.Coords, EltTy.bits .bf16 = 32 ∨ (Rect.block (s := S8x4096x1024) S1x512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x4096.size a
  hwx0_2 : ∀ i : grid0.Coords, EltTy.bits .f32 = 32 ∨ (Rect.block (s := S8x1x4096) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x4096x1024.size a
  hwx0_3 : ∀ i : grid0.Coords, EltTy.bits .bf16 = 32 ∨ (Rect.block (s := S8x4096x1024) S1x512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S8x1x1024.size a
  hwx0_4 : ∀ i : grid0.Coords, EltTy.bits .f32 = 32 ∨ (Rect.block (s := S8x1x1024) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S8x2048x1024.size a
  hwx0_5 : ∀ i : grid0.Coords, EltTy.bits .f32 = 32 ∨ (Rect.block (s := S8x2048x1024) S1x1024x1024.size (cc0_transform_5 i) (hinb0_5 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S8x4096x1024 : Shape := ⟨3, ![8, 4096, 1024]⟩
abbrev S8x4096 : Shape := ⟨2, ![8, 4096]⟩
abbrev S8x1024 : Shape := ⟨2, ![8, 1024]⟩
abbrev S8x2048x4096 : Shape := ⟨3, ![8, 2048, 4096]⟩
abbrev S8x1x4096 : Shape := ⟨3, ![8, 1, 4096]⟩
abbrev S_ : Shape := ⟨0, ![]⟩
abbrev S8x1x1024 : Shape := ⟨3, ![8, 1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x4096x1024, .f32⟩
  | .hbm, ⟨2, _⟩ => ⟨S8x4096, .f32⟩
  | .hbm, ⟨3, _⟩ => ⟨S8x4096x1024, .f32⟩
  | .hbm, ⟨4, _⟩ => ⟨S8x1024, .f32⟩
  | .hbm, ⟨5, _⟩ => ⟨S8x2048x4096, .f32⟩
  | .hbm, ⟨6, _⟩ => ⟨S8x1x4096, .f32⟩
  | .hbm, ⟨7, _⟩ => ⟨S8x2048x4096, .f32⟩
  | .hbm, ⟨8, _⟩ => ⟨S8x2048x4096, .f32⟩
  | .hbm, ⟨9, _⟩ => ⟨S_, .f32⟩
  | .hbm, ⟨10, _⟩ => ⟨S8x2048x4096, .f32⟩
  | .hbm, ⟨11, _⟩ => ⟨S8x2048x4096, .f32⟩
  | .hbm, ⟨12, _⟩ => ⟨S8x2048x1024, .f32⟩
  | .hbm, ⟨13, _⟩ => ⟨S8x1x1024, .f32⟩
  | .hbm, ⟨14, _⟩ => ⟨S8x2048x1024, .f32⟩
  | .hbm, ⟨15, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S8x4096_S8x1x4096_0_2 : S8x4096.BroadcastsInDim S8x1x4096 (![0, 2] : Fin 2 → Fin S8x1x4096.rank)
  bcast_S8x1x4096_S8x2048x4096_0_1_2 : S8x1x4096.BroadcastsInDim S8x2048x4096 (![0, 1, 2] : Fin 3 → Fin S8x2048x4096.rank)
  bcast_S_S8x2048x4096 : S_.BroadcastsInDim S8x2048x4096 (![] : Fin 0 → Fin S8x2048x4096.rank)
  bcast_S8x1024_S8x1x1024_0_2 : S8x1024.BroadcastsInDim S8x1x1024 (![0, 2] : Fin 2 → Fin S8x1x1024.rank)
  bcast_S8x1x1024_S8x2048x1024_0_1_2 : S8x1x1024.BroadcastsInDim S8x2048x1024 (![0, 1, 2] : Fin 3 → Fin S8x2048x1024.rank)
  dot_S8x2048x1024_S8x4096x1024_S8x2048x4096_2_2_1_1_0_0_wf : DotDims.WF S8x2048x1024 S8x4096x1024 S8x2048x4096 [2] [2] [1] [1] [0] [0]
  dot_S8x2048x4096_S8x4096x1024_S8x2048x1024_2_1_1_2_0_0_wf : DotDims.WF S8x2048x4096 S8x4096x1024 S8x2048x1024 [2] [1] [1] [2] [0] [0]

variable [Facts₀]

def dot_S8x2048x1024_S8x4096x1024_S8x2048x4096_2_2_1_1_0_0 : DotDims S8x2048x1024 S8x4096x1024 S8x2048x4096 where
  lhsContracting := [2]
  rhsContracting := [2]
  lhsNonContracting := [1]
  rhsNonContracting := [1]
  lhsBatch := [0]
  rhsBatch := [0]
  wf := dot_S8x2048x1024_S8x4096x1024_S8x2048x4096_2_2_1_1_0_0_wf
def dot_S8x2048x4096_S8x4096x1024_S8x2048x1024_2_1_1_2_0_0 : DotDims S8x2048x4096 S8x4096x1024 S8x2048x1024 where
  lhsContracting := [2]
  rhsContracting := [1]
  lhsNonContracting := [1]
  rhsNonContracting := [2]
  lhsBatch := [0]
  rhsBatch := [0]
  wf := dot_S8x2048x4096_S8x4096x1024_S8x2048x1024_2_1_1_2_0_0_wf

class Facts : Prop extends Facts₀ where

variable [Facts]
-- ==== Proof.LibSumSplit.lean ====
/-
  Sums regrouped by tiles, and a host sum over the last two axes.

  • An index below N = a · b is i · b + r for exactly one tile `i < a` and entry `r < b` (`tileIdx`), so in a
    commutative monoid a sum over `Fin N` is the sum over the tiles of the sums within each tile (`sum_tiles`): what
    joins a whole-axis sum with the same sum taken block by block.
  • A host sum of an `[a, n, m]` array of extended reals over its last two axes, read at batch `j`, is the initial
    value plus the double sum over the two reduced coordinates (`hostReduceAdd_last_two`): the indices that reduce to
    `j` are exactly the `(j, k, l)`.
-/
import Idealize.ShloMosaic.Lib.ValueIdx
import Idealize.ShloMosaic.PureOps.Ideal.Laws
import Idealize.ShloMosaic.PureOps.Reduce

noncomputable section

namespace Cert.PointDist

open Idealize.ShloMosaic Idealize.ShloMosaic.ValueIdx

/-- Entry `r` of tile `i`, of `a` tiles of `b` entries, as an index below `N = a · b`. -/
def tileIdx {a b N : ℕ} (h : a * b = N) (i : Fin a) (r : Fin b) : Fin N :=
  ⟨i.val * b + r.val, by
    have hi := i.isLt; have hr := r.isLt
    calc i.val * b + r.val < i.val * b + b := Nat.add_lt_add_left hr _
      _ = (i.val + 1) * b := (Nat.succ_mul _ _).symm
      _ ≤ a * b := Nat.mul_le_mul_right _ hi
      _ = N := h⟩

theorem tileIdx_val {a b N : ℕ} (h : a * b = N) (i : Fin a) (r : Fin b) : (tileIdx h i r).val = i.val * b + r.val := rfl

/-- A sum over `N = a · b` entries is the sum over the tiles of the sums within each tile. -/
theorem sum_tiles {M : Type*} [AddCommMonoid M] {a b N : ℕ} (h : a * b = N) (f : Fin N → M) :
    ∑ n, f n = ∑ i : Fin a, ∑ r : Fin b, f (tileIdx h i r) := by
  subst h
  rw [← finProdFinEquiv.sum_comp, Fintype.sum_prod_type]
  refine Finset.sum_congr rfl fun i _ => Finset.sum_congr rfl fun r _ => congrArg f (Fin.ext ?_)
  show r.val + b * i.val = i.val * b + r.val
  rw [Nat.mul_comm, Nat.add_comm]

/-- The host's sum of an `[a, n, m]` array over its last two axes, at batch `j`: the initial value plus the double
    sum over the two reduced coordinates. The indices that drop to `j` are exactly the `(j, n, m)`. -/
theorem hostReduceAdd_last_two {a n m : ℕ} (h : (⟨3, ![a, n, m]⟩ : Shape).ReducesTo [1, 2] (⟨1, ![a]⟩ : Shape))
    (x : (⟨3, ![a, n, m]⟩ : Shape).Idx → EReal) (init : EReal) (j : Fin a) :
    Ideal.hostReduceAdd h x init (ix1 j) = init + ∑ k : Fin n, ∑ l : Fin m, x (ix3 j k l) := by
  unfold Ideal.hostReduceAdd
  refine congrArg (init + ·) ?_
  rw [← Fintype.sum_prod_type']
  -- the one kept axis is the batch axis
  have hdrop : ∀ i : (⟨3, ![a, n, m]⟩ : Shape).Idx, ((h.drop i) 0).val = (i 0).val := fun i => rfl
  have hleft : ∀ i ∈ Finset.univ.filter (fun i => h.drop i = ix1 j), ix3 j (i 1) (i 2) = i := by
    intro i hi
    have hj := (Finset.mem_filter.1 hi).2
    have h0 : (i 0).val = j.val := by
      have := congrArg (fun y : (⟨1, ![a]⟩ : Shape).Idx => (y 0).val) hj
      exact (hdrop i).symm.trans this
    funext c; apply Fin.ext
    match c with
    | ⟨0, _⟩ => exact h0.symm
    | ⟨1, _⟩ => rfl
    | ⟨2, _⟩ => rfl
  refine Finset.sum_nbij' (fun i => (i 1, i 2)) (fun p => ix3 j p.1 p.2) ?_ ?_ ?_ ?_ ?_
  · intro i _; exact Finset.mem_univ _
  · intro p _
    refine Finset.mem_filter.2 ⟨Finset.mem_univ _, ?_⟩
    funext b; apply Fin.ext
    match b with
    | ⟨0, _⟩ => exact hdrop _
  · intro i hi; exact hleft i hi
  · intro p _; rfl
  · intro i hi; exact congrArg x (hleft i hi).symm

end Cert.PointDist

end
-- ==== Proof.Spec.lean ====
/-
  The function both programs compute, index by index, on the extended reals.

  For experts e < 8, token rows c < 2048, model columns o < 1024 and hidden units k < 4096:
    hid (e, c, k)  = max (Σ_{j < 1024} X (e, c, j) · W1 (e, k, j) + B1 (e, k)) 0        (the first layer and its relu)
    G (e, c, o)    = Σ_{k < 4096} hid (e, c, k) · W2 (e, k, o) + B2 (e, o)              (the second layer)
  The zero inside the maximum is kept as the float word both programs print; it is never evaluated.

  The hidden axis is walked in 8 tiles of 512 units; `hidden_by_tiles` regroups the sum over k accordingly, over the
  tile numbers as a range of naturals (the form a running total over consecutive grid points produces).
-/
import Idealize.ShloMosaic.PureOps.Ideal
import Idealize.ShloMosaic.PureOps.Ideal.Laws
import Idealize.ShloMosaic.Lib.ValueIdx
import proofs.«178781_j1726576856628_2_alg».proof.Proof.LibSumSplit

noncomputable section

namespace Cert.Spec

open Idealize.ShloMosaic Idealize.ShloMosaic.ValueIdx

abbrev SX : Shape := ⟨3, ![8, 2048, 1024]⟩
abbrev SW : Shape := ⟨3, ![8, 4096, 1024]⟩
abbrev SB1 : Shape := ⟨2, ![8, 4096]⟩
abbrev SB2 : Shape := ⟨2, ![8, 1024]⟩

/-- The float word of zero that both programs compare against. -/
abbrev zeroWord : EReal := Ideal.ofBits .f32 0x00000000#32

/-- Hidden unit `k` of expert `e` on token row `c`: the first layer's affine map, then the relu. -/
def hid (X : SX.Idx → EReal) (W1 : SW.Idx → EReal) (B1 : SB1.Idx → EReal) (e : Fin 8) (c : Fin 2048) (k : Fin 4096) : EReal :=
  max ((∑ j : Fin 1024, X (ix3 e c j) * W1 (ix3 e k j)) + B1 (ix2 e k)) zeroWord

/-- Hidden unit `k`'s contribution to output column `o`. -/
def term (X : SX.Idx → EReal) (W1 : SW.Idx → EReal) (B1 : SB1.Idx → EReal) (W2 : SW.Idx → EReal)
    (e : Fin 8) (c : Fin 2048) (o : Fin 1024) (k : Fin 4096) : EReal :=
  hid X W1 B1 e c k * W2 (ix3 e k o)

/-- The whole result array as one function of the five argument arrays. -/
def G (X : SX.Idx → EReal) (W1 : SW.Idx → EReal) (B1 : SB1.Idx → EReal) (W2 : SW.Idx → EReal) (B2 : SB2.Idx → EReal) :
    SX.Idx → EReal :=
  fun i => (∑ k : Fin 4096, term X W1 B1 W2 (i 0) (i 1) (i 2) k) + B2 (ix2 (i 0) (i 2))

theorem G_apply (X : SX.Idx → EReal) (W1 : SW.Idx → EReal) (B1 : SB1.Idx → EReal) (W2 : SW.Idx → EReal) (B2 : SB2.Idx → EReal)
    (e : Fin 8) (c : Fin 2048) (o : Fin 1024) :
    G X W1 B1 W2 B2 (ix3 e c o) = (∑ k : Fin 4096, term X W1 B1 W2 e c o k) + B2 (ix2 e o) := rfl

/-- Hidden unit `j` of tile `s` (taken modulo 8, so that the index is total in the natural `s`). -/
def tileUnit (s : ℕ) (j : Fin 512) : Fin 4096 :=
  ⟨(s % 8) * 512 + j.val, by have := j.isLt; have := Nat.mod_lt s (show 0 < 8 by decide); omega⟩

theorem tileUnit_val (s : ℕ) (j : Fin 512) : (tileUnit s j).val = (s % 8) * 512 + j.val := rfl

/-- A sum over the 4096 hidden units, taken tile by tile. -/
theorem hidden_by_tiles {M : Type*} [AddCommMonoid M] (f : Fin 4096 → M) :
    ∑ k : Fin 4096, f k = ∑ s ∈ Finset.range 8, ∑ j : Fin 512, f (tileUnit s j) := by
  rw [Cert.PointDist.sum_tiles (show 8 * 512 = 4096 from rfl) f, ← Fin.sum_univ_eq_sum_range (fun s => ∑ j : Fin 512, f (tileUnit s j)) 8]
  refine Finset.sum_congr rfl fun i _ => Finset.sum_congr rfl fun r _ => congrArg f (Fin.ext ?_)
  show i.val * 512 + r.val = (i.val % 8) * 512 + r.val
  rw [Nat.mod_eq_of_lt i.isLt]

end Cert.Spec

end
-- ==== Proof.RefIsG.lean ====
/-
  The reference program computes the specification `G`, index by index, on the extended reals.

  At an index (e, c, o) the reference's last addition reads the second contraction, a sum over the 4096 hidden
  units k of (first layer at (e, c, k)) · W2 (e, k, o), plus the second bias read through its two broadcasts at (e, o).
  The first layer at (e, c, k) is the maximum of the first contraction, a sum over j < 1024 of X (e, c, j) · W1 (e, k, j),
  plus the first bias read through its two broadcasts at (e, k), against the zero word read through its broadcast.
  Each composed index function is identified with the index built from the coordinates, and what is left is `G` itself.
-/
import proofs.«178781_j1726576856628_2_alg».proof.Proof.Gen.ReferenceIdeal.Read
import proofs.«178781_j1726576856628_2_alg».proof.Proof.Spec
import Idealize.ShloMosaic.PureOps.Ideal.Laws
import Idealize.ShloMosaic.Lib.ValueIdx
noncomputable section
namespace Cert.RefG
open Cert.ReferenceIdeal Idealize.ShloMosaic Idealize.ShloMosaic.ValueIdx

/-! ## The composed index functions, at an index given by its coordinates -/

/-- The first contraction reads X at (e, c, j). -/
theorem lidx0 (e : Fin 8) (c : Fin 2048) (k : Fin 4096) (j : Fin 1024) :
    Read.lidx_main_v0 (ix3 e c k) j = ix3 e c j :=
  funext fun a => by match a with | ⟨0, _⟩ => rfl | ⟨1, _⟩ => rfl | ⟨2, _⟩ => rfl

/-- The first contraction reads W1 at (e, k, j). -/
theorem ridx0 (e : Fin 8) (c : Fin 2048) (k : Fin 4096) (j : Fin 1024) :
    Read.ridx_main_v0 (ix3 e c k) j = ix3 e k j :=
  funext fun a => by match a with | ⟨0, _⟩ => rfl | ⟨1, _⟩ => rfl | ⟨2, _⟩ => rfl

/-- The first bias, through its two broadcasts, is read at (e, k). -/
theorem bidx1 (e : Fin 8) (c : Fin 2048) (k : Fin 4096) :
    Read.idx_main_v1 (Read.idx_main_v2 (ix3 e c k)) = ix2 e k :=
  funext fun a => by match a with | ⟨0, _⟩ => rfl | ⟨1, _⟩ => rfl

/-- The second contraction reads the first layer at (e, c, k). -/
theorem lidx5 (e : Fin 8) (c : Fin 2048) (o : Fin 1024) (k : Fin 4096) :
    Read.lidx_main_v5 (ix3 e c o) k = ix3 e c k :=
  funext fun a => by match a with | ⟨0, _⟩ => rfl | ⟨1, _⟩ => rfl | ⟨2, _⟩ => rfl

/-- The second contraction reads W2 at (e, k, o). -/
theorem ridx5 (e : Fin 8) (c : Fin 2048) (o : Fin 1024) (k : Fin 4096) :
    Read.ridx_main_v5 (ix3 e c o) k = ix3 e k o :=
  funext fun a => by match a with | ⟨0, _⟩ => rfl | ⟨1, _⟩ => rfl | ⟨2, _⟩ => rfl

/-- The second bias, through its two broadcasts, is read at (e, o). -/
theorem bidx2 (e : Fin 8) (c : Fin 2048) (o : Fin 1024) :
    Read.idx_main_v6 (Read.idx_main_v7 (ix3 e c o)) = ix2 e o :=
  funext fun a => by match a with | ⟨0, _⟩ => rfl | ⟨1, _⟩ => rfl

/-! ## The two layers at an index -/

/-- The first layer with its relu at (e, c, k) is the hidden unit `hid`:
    max (Σ_{j < 1024} X (e, c, j) · W1 (e, k, j) + B1 (e, k)) against the zero word. -/
theorem layer1_apply (x0 : (⟨S8x2048x1024, .f32⟩ : BufTy).Contents (Elt Ideal)) (x1 : (⟨S8x4096x1024, .f32⟩ : BufTy).Contents (Elt Ideal))
    (x2 : (⟨S8x4096, .f32⟩ : BufTy).Contents (Elt Ideal)) (e : Fin 8) (c : Fin 2048) (k : Fin 4096) :
    Read.val_main_v4 (F := Ideal) x0 x1 x2 (ix3 e c k) = Cert.Spec.hid x0 x1 x2 e c k := by
  rw [Read.val_main_v4_apply, Read.val_main_v3_apply, Read.val_main_v0_apply, Read.val_main_v2_apply, Read.val_main_v1_apply,
    Read.val_main_call0_v0_apply, Read.val_main_call0_cst_apply, bidx1]
  unfold Cert.Spec.hid
  refine congrArg₂ max (congrArg₂ (· + ·) (Finset.sum_congr rfl fun j _ => ?_) rfl) rfl
  rw [lidx0, ridx0]

/-- The second bias at (e, c, o), through its two broadcasts, is B2 (e, o). -/
theorem bias2_apply (x4 : (⟨S8x1024, .f32⟩ : BufTy).Contents (Elt Ideal)) (e : Fin 8) (c : Fin 2048) (o : Fin 1024) :
    Read.val_main_v7 (F := Ideal) x4 (ix3 e c o) = x4 (ix2 e o) := by
  rw [Read.val_main_v7_apply, Read.val_main_v6_apply, bidx2]

/-- The reference's result is `G`: Σ_{k < 4096} hid (e, c, k) · W2 (e, k, o) + B2 (e, o) at every index (e, c, o). -/
theorem ref_eq (x0 : (⟨S8x2048x1024, .f32⟩ : BufTy).Contents (Elt Ideal)) (x1 : (⟨S8x4096x1024, .f32⟩ : BufTy).Contents (Elt Ideal))
    (x2 : (⟨S8x4096, .f32⟩ : BufTy).Contents (Elt Ideal)) (x3 : (⟨S8x4096x1024, .f32⟩ : BufTy).Contents (Elt Ideal))
    (x4 : (⟨S8x1024, .f32⟩ : BufTy).Contents (Elt Ideal)) :
    Cert.ReferenceIdeal.Read.val_main_v8 (F := Ideal) x0 x1 x2 x3 x4 = Cert.Spec.G x0 x1 x2 x3 x4 := by
  funext i
  obtain ⟨e, c, o, rfl⟩ : ∃ (e : Fin 8) (c : Fin 2048) (o : Fin 1024), i = ix3 e c o := ⟨i 0, i 1, i 2, eq_ix3 i⟩
  rw [Cert.Spec.G_apply, Read.val_main_v8_apply, Read.val_main_v5_apply, bias2_apply]
  refine congrArg₂ (· + ·) (Finset.sum_congr rfl fun k _ => ?_) rfl
  rw [lidx5, ridx5, layer1_apply]
  rfl

end Cert.RefG
end
-- ==== Proof.Pieces.lean ====
/-
  What each control case of the kernel body leaves behind, as values.

  The body keeps a running total in a scratch block of 1024 × 1024 entries. At the first hidden tile of a run it
  stores the zero block and then the zero block plus this tile's contribution; at every other tile it stores what the
  tile before left plus this tile's contribution; at the last tile it also stores, into the output block, the total
  plus the second layer's bias row. Each store covers its whole buffer, so what a buffer holds afterwards is the
  last store's value.
-/
import proofs.«178781_j1726576856628_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile: the scratch ends at what it held plus this tile's contribution. -/
theorem scratch_B (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x512x1024 .bf16) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1024x1024 .f32) (harg9 : arg9.IsWhole) (hc0 : ¬cond0_0 i) (hc1 : ¬cond0_1 i)
    (x0 : Vec F S1x1024x1024 .bf16) (x1 : Vec F S1x512x1024 .bf16) (x2 : Vec F S1x1x512 .f32) (x3 : Vec F S1x512x1024 .bf16) (x4 : Vec F S1x1x1024 .f32) (xs0 : Vec F S1024x1024 .f32) :
    sout0_B_0 c i arg3 harg3 arg4 harg4 arg5 harg5 arg6 harg6 arg7 harg7 arg8 harg8 arg9 harg9 hc0 hc1 x0 x1 x2 x3 x4 xs0 = k0_pay2 x0 x1 x2 x3 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  rw [View.canon_unit_zero hz2]
  simp only [View.readAt_eq_ld, harg3.read_unread, harg4.read_unread, harg5.read_unread, harg6.read_unread, harg7.read_unread, harg9.read_unread,
    View.ld_unit_zero (S := S1x1024x1024) hz3, View.ld_unit_zero (S := S1x512x1024) hz3, View.ld_unit_zero (S := S1x1x512) hz3,
    View.ld_unit_zero (S := S1x1x1024) hz3, View.ld_unit_zero (S := S1024x1024) hz2]

/-- The last tile: the scratch ends the same way, -/
theorem scratch_C (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x512x1024 .bf16) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1024x1024 .f32) (harg9 : arg9.IsWhole) (hc0 : ¬cond0_0 i) (hc1 : cond0_1 i)
    (x0 : Vec F S1x1024x1024 .bf16) (x1 : Vec F S1x512x1024 .bf16) (x2 : Vec F S1x1x512 .f32) (x3 : Vec F S1x512x1024 .bf16) (x4 : Vec F S1x1x1024 .f32) (xs0 : Vec F S1024x1024 .f32) :
    sout0_C_0 c i arg3 harg3 arg4 harg4 arg5 harg5 arg6 harg6 arg7 harg7 arg8 harg8 arg9 harg9 hc0 hc1 x0 x1 x2 x3 x4 xs0 = k0_pay2 x0 x1 x2 x3 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz2]
  simp only [View.readAt_eq_ld, harg3.read_unread, harg4.read_unread, harg5.read_unread, harg6.read_unread, harg7.read_unread, harg9.read_unread,
    View.ld_unit_zero (S := S1x1024x1024) hz3, View.ld_unit_zero (S := S1x512x1024) hz3, View.ld_unit_zero (S := S1x1x512) hz3,
    View.ld_unit_zero (S := S1x1x1024) hz3, View.ld_unit_zero (S := S1024x1024) hz2]

/-- and the output block is that total plus the bias row. -/
theorem out_C (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x512x1024 .bf16) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1024x1024 .f32) (harg9 : arg9.IsWhole) (hc0 : ¬cond0_0 i) (hc1 : cond0_1 i)
    (x0 : Vec F S1x1024x1024 .bf16) (x1 : Vec F S1x512x1024 .bf16) (x2 : Vec F S1x1x512 .f32) (x3 : Vec F S1x512x1024 .bf16) (x4 : Vec F S1x1x1024 .f32) (xs0 : Vec F S1024x1024 .f32) :
    out0_C_5 c i arg3 harg3 arg4 harg4 arg5 harg5 arg6 harg6 arg7 harg7 arg8 harg8 arg9 harg9 hc0 hc1 x0 x1 x2 x3 x4 xs0 = k0_pay3 (k0_pay2 x0 x1 x2 x3 xs0) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz3, View.readCov_unit_zero (S := S1024x1024) _ hz2]
  simp only [View.readAt_eq_ld, harg3.read_unread, harg4.read_unread, harg5.read_unread, harg6.read_unread, harg7.read_unread, harg9.read_unread,
    View.ld_unit_zero (S := S1x1024x1024) hz3, View.ld_unit_zero (S := S1x512x1024) hz3, View.ld_unit_zero (S := S1x1x512) hz3,
    View.ld_unit_zero (S := S1x1x1024) hz3, View.ld_unit_zero (S := S1024x1024) hz2]

/-- The first tile of a run: the scratch ends at the zero block plus this tile's contribution. -/
theorem scratch_A (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x512x1024 .bf16) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1024x1024 .f32) (harg9 : arg9.IsWhole) (hc0 : cond0_0 i) (hc1 : ¬cond0_1 i)
    (x0 : Vec F S1x1024x1024 .bf16) (x1 : Vec F S1x512x1024 .bf16) (x2 : Vec F S1x1x512 .f32) (x3 : Vec F S1x512x1024 .bf16) (x4 : Vec F S1x1x1024 .f32) :
    sout0_A_0 c i arg3 harg3 arg4 harg4 arg5 harg5 arg6 harg6 arg7 harg7 arg8 harg8 arg9 harg9 hc0 hc1 x0 x1 x2 x3 x4 = k0_pay2 x0 x1 x2 x3 (k0_pay1 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1024) hz2, View.readCov_unit_zero (S := S1024x1024) _ hz2]
  simp only [View.readAt_eq_ld, harg3.read_unread, harg4.read_unread, harg5.read_unread, harg6.read_unread, harg7.read_unread, harg9.read_unread,
    View.ld_unit_zero (S := S1x1024x1024) hz3, View.ld_unit_zero (S := S1x512x1024) hz3, View.ld_unit_zero (S := S1x1x512) hz3,
    View.ld_unit_zero (S := S1x1x1024) hz3, View.ld_unit_zero (S := S1024x1024) hz2]

end Cert.KernelIdeal.Pieces

end
-- ==== Proof.Blocks.lean ====
/-
  What the kernel's windows read at a grid point, in terms of the five argument arrays.

  The grid has 8 × 2 × 8 points: point n works on expert n / 16, on token rows (n / 8 mod 2) · 1024 + r, and on the
  hidden tile n mod 8, whose unit j is hidden unit (n mod 8) · 512 + j. Before the region the host narrows the three
  large arrays to a 16-bit format (the identity on extended reals) and gives each bias vector a unit middle axis, so
  an entry of a window's block is an entry of an argument array at the coordinates above.
-/
import proofs.«178781_j1726576856628_2_alg».proof.Proof.Gen.KernelIdeal.Frame
import proofs.«178781_j1726576856628_2_alg».proof.Proof.Spec
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The expert a grid point works on, the first token row of its block and its hidden tile, from the point's number
    (total in the natural: taken modulo the axis extents). -/
def expertOf (n : ℕ) : Fin 8 := ⟨n / 16 % 8, Nat.mod_lt _ (by decide)⟩
def rowOf (n : ℕ) (r : Fin 1024) : Fin 2048 :=
  ⟨(n / 8 % 2) * 1024 + r.val, by have := r.isLt; have := Nat.mod_lt (n / 8) (show 0 < 2 by decide); omega⟩

/-- The windows' block indices at each grid point, decided once over the grid. -/
theorem idx_facts : ∀ t : Fin cfg0.N,
    (win0_0.index t 0 = t.val / 16 % 8 ∧ win0_0.index t 1 = t.val / 8 % 2 ∧ win0_0.index t 2 = 0)
    ∧ (win0_1.index t 0 = t.val / 16 % 8 ∧ win0_1.index t 1 = t.val % 8 ∧ win0_1.index t 2 = 0)
    ∧ (win0_2.index t 0 = t.val / 16 % 8 ∧ win0_2.index t 1 = 0 ∧ win0_2.index t 2 = t.val % 8)
    ∧ (win0_3.index t 0 = t.val / 16 % 8 ∧ win0_3.index t 1 = t.val % 8 ∧ win0_3.index t 2 = 0)
    ∧ (win0_4.index t 0 = t.val / 16 % 8 ∧ win0_4.index t 1 = 0 ∧ win0_4.index t 2 = 0)
    ∧ (win0_5.index t 0 = t.val / 16 % 8 ∧ win0_5.index t 1 = t.val / 8 % 2 ∧ win0_5.index t 2 = 0) :=
  (by decide +kernel : ∀ t : Fin grid0.N, _)

/-- The arrays as the region finds them: the three casts to the narrow format are the identity on extended reals,
    the two bias vectors are reshaped to carry a unit middle axis. -/
theorem V_v0 (c : Dev nD) : (V m c main_v0 : S8x2048x1024.Idx → EReal) = m ((c : Thread nD τ).loc main_arg0) := by
  dsimp only [Gen.V, Gen.hostOps0]; after_results; rfl

theorem V_v1 (c : Dev nD) : (V m c main_v1 : S8x4096x1024.Idx → EReal) = m ((c : Thread nD τ).loc main_arg1) := by
  dsimp only [Gen.V, Gen.hostOps0]; after_results; rfl

theorem V_v2 (c : Dev nD) : (V m c main_v2 : S8x4096x1024.Idx → EReal) = m ((c : Thread nD τ).loc main_arg3) := by
  dsimp only [Gen.V, Gen.hostOps0]; after_results; rfl

theorem V_v3_apply (c : Dev nD) (e : Fin 8) (u : Fin 1) (k : Fin 4096) :
    (V m c main_v3 : S8x1x4096.Idx → EReal) (ix3 e u k) = m ((c : Thread nD τ).loc main_arg2) (ix2 e k) := by
  have e1 : (V m c main_v3 : S8x1x4096.Idx → EReal)
      = shapeCast S8x1x4096 (m ((c : Thread nD τ).loc main_arg2)) shapeCasts_S8x4096_S8x1x4096 := by
    dsimp only [Gen.V, Gen.hostOps0]; after_results; rfl
  rw [e1]
  refine shapeCast_apply _ _ _ _ ?_
  show ((⟨2, ![8, 4096]⟩ : Shape).rowMajor (ix2 e k)).val = ((⟨3, ![8, 1, 4096]⟩ : Shape).rowMajor (ix3 e u k)).val
  rw [Shape.rowMajor_val_two, Shape.rowMajor_val_three]
  show e.val * 4096 + k.val = (e.val * 1 + u.val) * 4096 + k.val
  have := u.isLt; omega

theorem V_v4_apply (c : Dev nD) (e : Fin 8) (u : Fin 1) (o : Fin 1024) :
    (V m c main_v4 : S8x1x1024.Idx → EReal) (ix3 e u o) = m ((c : Thread nD τ).loc main_arg4) (ix2 e o) := by
  have e1 : (V m c main_v4 : S8x1x1024.Idx → EReal)
      = shapeCast S8x1x1024 (m ((c : Thread nD τ).loc main_arg4)) shapeCasts_S8x1024_S8x1x1024 := by
    dsimp only [Gen.V, Gen.hostOps0]; after_results; rfl
  rw [e1]
  refine shapeCast_apply _ _ _ _ ?_
  show ((⟨2, ![8, 1024]⟩ : Shape).rowMajor (ix2 e o)).val = ((⟨3, ![8, 1, 1024]⟩ : Shape).rowMajor (ix3 e u o)).val
  rw [Shape.rowMajor_val_two, Shape.rowMajor_val_three]
  show e.val * 1024 + o.val = (e.val * 1 + u.val) * 1024 + o.val
  have := u.isLt; omega

/-- The token block of point `t`: row `r` of the block is row `rowOf t r` of expert `expertOf t`. -/
theorem blk0 (c : Dev nD) (t : Fin cfg0.N) (u : Fin 1) (r q : Fin 1024) :
    iblk m c 0 t (ix3 u r q) = m ((c : Thread nD τ).loc main_arg0) (ix3 (expertOf t.val) (rowOf t.val r) q) := by
  unfold iblk
  rw [View.read_apply]
  show (V m c main_v0 : S8x2048x1024.Idx → EReal) _ = _
  rw [V_v0 m c]
  refine congrArg _ (funext fun a => Fin.ext ?_)
  have hu := u.isLt
  match a with
  | ⟨0, _⟩ => show win0_0.index t 0 * 1 + 1 * u.val = t.val / 16 % 8; rw [(idx_facts t).1.1]; omega
  | ⟨1, _⟩ => show win0_0.index t 1 * 1024 + 1 * r.val = (t.val / 8 % 2) * 1024 + r.val; rw [(idx_facts t).1.2.1]; omega
  | ⟨2, _⟩ => show win0_0.index t 2 * 1024 + 1 * q.val = q.val; rw [(idx_facts t).1.2.2]; omega

/-- The first layer's weight block of point `t`: row `j` of the block is hidden unit `tileUnit t j`. -/
theorem blk1 (c : Dev nD) (t : Fin cfg0.N) (u : Fin 1) (j : Fin 512) (q : Fin 1024) :
    iblk m c 1 t (ix3 u j q) = m ((c : Thread nD τ).loc main_arg1) (ix3 (expertOf t.val) (Cert.Spec.tileUnit t.val j) q) := by
  unfold iblk
  rw [View.read_apply]
  show (V m c main_v1 : S8x4096x1024.Idx → EReal) _ = _
  rw [V_v1 m c]
  refine congrArg _ (funext fun a => Fin.ext ?_)
  have hu := u.isLt
  match a with
  | ⟨0, _⟩ => show win0_1.index t 0 * 1 + 1 * u.val = t.val / 16 % 8; rw [(idx_facts t).2.1.1]; omega
  | ⟨1, _⟩ => show win0_1.index t 1 * 512 + 1 * j.val = (t.val % 8) * 512 + j.val; rw [(idx_facts t).2.1.2.1]; omega
  | ⟨2, _⟩ => show win0_1.index t 2 * 1024 + 1 * q.val = q.val; rw [(idx_facts t).2.1.2.2]; omega

/-- The first layer's bias block of point `t`. -/
theorem blk2 (c : Dev nD) (t : Fin cfg0.N) (u u' : Fin 1) (j : Fin 512) :
    iblk m c 2 t (ix3 u u' j) = m ((c : Thread nD τ).loc main_arg2) (ix2 (expertOf t.val) (Cert.Spec.tileUnit t.val j)) := by
  unfold iblk
  rw [View.read_apply]
  show (V m c main_v3 : S8x1x4096.Idx → EReal) _ = _
  refine Eq.trans (congrArg _ (funext fun a => Fin.ext ?_)) (V_v3_apply m c (expertOf t.val) (0 : Fin 1) (Cert.Spec.tileUnit t.val j))
  have hu := u.isLt
  have hu' := u'.isLt
  match a with
  | ⟨0, _⟩ => show win0_2.index t 0 * 1 + 1 * u.val = t.val / 16 % 8; rw [(idx_facts t).2.2.1.1]; omega
  | ⟨1, _⟩ => show win0_2.index t 1 * 1 + 1 * u'.val = 0; rw [(idx_facts t).2.2.1.2.1]; omega
  | ⟨2, _⟩ => show win0_2.index t 2 * 512 + 1 * j.val = (t.val % 8) * 512 + j.val; rw [(idx_facts t).2.2.1.2.2]; omega

/-- The second layer's weight block of point `t`. -/
theorem blk3 (c : Dev nD) (t : Fin cfg0.N) (u : Fin 1) (j : Fin 512) (o : Fin 1024) :
    iblk m c 3 t (ix3 u j o) = m ((c : Thread nD τ).loc main_arg3) (ix3 (expertOf t.val) (Cert.Spec.tileUnit t.val j) o) := by
  unfold iblk
  rw [View.read_apply]
  show (V m c main_v2 : S8x4096x1024.Idx → EReal) _ = _
  rw [V_v2 m c]
  refine congrArg _ (funext fun a => Fin.ext ?_)
  have hu := u.isLt
  match a with
  | ⟨0, _⟩ => show win0_3.index t 0 * 1 + 1 * u.val = t.val / 16 % 8; rw [(idx_facts t).2.2.2.1.1]; omega
  | ⟨1, _⟩ => show win0_3.index t 1 * 512 + 1 * j.val = (t.val % 8) * 512 + j.val; rw [(idx_facts t).2.2.2.1.2.1]; omega
  | ⟨2, _⟩ => show win0_3.index t 2 * 1024 + 1 * o.val = o.val; rw [(idx_facts t).2.2.2.1.2.2]; omega

/-- The second layer's bias block of point `t`. -/
theorem blk4 (c : Dev nD) (t : Fin cfg0.N) (u u' : Fin 1) (o : Fin 1024) :
    iblk m c 4 t (ix3 u u' o) = m ((c : Thread nD τ).loc main_arg4) (ix2 (expertOf t.val) o) := by
  unfold iblk
  rw [View.read_apply]
  show (V m c main_v4 : S8x1x1024.Idx → EReal) _ = _
  refine Eq.trans (congrArg _ (funext fun a => Fin.ext ?_)) (V_v4_apply m c (expertOf t.val) (0 : Fin 1) o)
  have hu := u.isLt
  have hu' := u'.isLt
  match a with
  | ⟨0, _⟩ => show win0_4.index t 0 * 1 + 1 * u.val = t.val / 16 % 8; rw [(idx_facts t).2.2.2.2.1.1]; omega
  | ⟨1, _⟩ => show win0_4.index t 1 * 1 + 1 * u'.val = 0; rw [(idx_facts t).2.2.2.2.1.2.1]; omega
  | ⟨2, _⟩ => show win0_4.index t 2 * 1024 + 1 * o.val = o.val; rw [(idx_facts t).2.2.2.2.1.2.2]; omega

end Cert.KernelIdeal.Blocks

end
-- ==== Proof.LibContractLast.lean ====
/-
  A matrix product that contracts the LAST axis of both operands, read at an entry.

  For a left operand l of shape [A, K] and a right operand r of shape [B, K] (the right operand held row by row,
  not transposed), the product contracting axis 1 of each has shape [A, B], and its entry (p, q) is the sum over
  k below K of l (p, k) * r (q, k).  The product's definition sums over the index type of the contracted axes
  and reads the operands at indices assembled from the output index and the contraction index; the tactic below
  re-indexes that sum by k and identifies the two assembled indices with (p, k) and (q, k).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 q k)` for a
    dimension record `D` that contracts axis 1 of both rank-2 operands (extent `K`) and keeps axis 0 of the left
    operand and axis 0 of the right operand as the output's two axes; `SL` and `SR` are the operands' shapes. It
    expects `l`, `r`, `p`, `q` in scope under these names. -/
macro "contract_last " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = q.val := fun c => by
    unfold DotDims.rhsIdx
    rw [dif_neg (show ¬(0 : Fin ($SR).rank) ∈ ($D).rhsBatch by decide), dif_pos (show (0 : Fin ($SR).rank) ∈ ($D).rhsNonContracting by decide)]
    rfl
  have r1 : ∀ c, ((($D).rhsIdx (ValueIdx.ix2 p q) c) 1).val = (c ⟨0, by decide⟩).val := fun c =>
    ($D).rhsIdx_val_of_single rfl (ValueIdx.ix2 p q) c
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 q k := funext fun a => Fin.ext (by
    match a with
    | ⟨0, _⟩ => exact r0 _
    | ⟨1, _⟩ => exact (r1 _).trans hk)
  rw [el, er]))

end Cert.Hand
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.Payload.lean ====
/-
  The kernel body's three stored values, read at one entry on the extended reals.

  With X the [1024, 1024] block of token rows, W1 the [512, 1024] tile of first-layer weights, b1 the tile's 512 biases
  and W2 the [512, 1024] tile of second-layer weights (each block carrying a leading unit axis, read at 0):
    first store   (r, o)    : 0
    running store (r, o)    : acc (r, o) + Σ_{j < 512} max (Σ_{q < 1024} X (r, q) · W1 (j, q) + b1 (j)) 0 · W2 (j, o)
    final store   (u, r, o) : acc (r, o) + b2 (o)
  The zero inside the maximum is kept as the float word of zero; it is not evaluated here.
-/
import proofs.«178781_j1726576856628_2_alg».proof.Proof.Gen.KernelIdeal.Skeleton
import proofs.«178781_j1726576856628_2_alg».proof.Proof.Spec
import proofs.«178781_j1726576856628_2_alg».proof.Proof.LibContractLast
import proofs.«178781_j1726576856628_2_alg».proof.Proof.LibDotRows
import Idealize.ShloMosaic.PureOps.Ideal.Laws
import Idealize.ShloMosaic.Lib.ValueIdx
import Idealize.ShloMosaic.Lib.Pipeline.Value
import Idealize.ShloMosaic.Lib.ValueLayout
noncomputable section
namespace Cert.KernelIdeal.Pay
open Cert.KernelIdeal Cert.KernelIdeal.Gen Idealize.ShloMosaic Idealize.ShloMosaic.ValueIdx

/-- The zero splat read at an entry: the float word of zero is the extended real zero. -/
theorem pay1_apply (r o : Fin 1024) : k0_pay1 (F := Ideal) (ix2 r o) = 0 := by
  unfold k0_pay1
  refine (congrFun (shapeCast_self _ _) _).trans ?_
  exact Ideal.ofBits_zero_f32

/-- Entry (p, q) of the first product, which contracts the last axis of both operands:
    the sum over k below 1024 of l (p, k) * r (q, k). -/
theorem contract_first (l : FVec Ideal S1024x1024 .bf16) (r : FVec Ideal S512x1024 .bf16) (p : Fin 1024) (q : Fin 512) :
    ∑ c, l (dot_S1024x1024_S512x1024_S1024x512_1_1_0_0_n_n.lhsIdx (ix2 p q) c)
          * r (dot_S1024x1024_S512x1024_S1024x512_1_1_0_0_n_n.rhsIdx (ix2 p q) c)
      = ∑ k : Fin 1024, l (ix2 p k) * r (ix2 q k) := by
  contract_last dot_S1024x1024_S512x1024_S1024x512_1_1_0_0_n_n S1024x1024 S512x1024 1024

/-- Entry (p, q) of the second product, which contracts the left operand's axis 1 with the right operand's axis 0:
    the sum over k below 512 of l (p, k) * r (k, q). -/
theorem contract_second (l : FVec Ideal S1024x512 .bf16) (r : FVec Ideal S512x1024 .bf16) (p q : Fin 1024) :
    ∑ c, l (dot_S1024x512_S512x1024_S1024x1024_1_0_0_1_n_n.lhsIdx (ix2 p q) c)
          * r (dot_S1024x512_S512x1024_S1024x1024_1_0_0_1_n_n.rhsIdx (ix2 p q) c)
      = ∑ k : Fin 512, l (ix2 p k) * r (ix2 k q) := by
  dot_rows dot_S1024x512_S512x1024_S1024x1024_1_0_0_1_n_n S1024x512 S512x1024 512

/-- The hidden tile at (r, j): row r of the first operand against row j of the second, summed over the 1024 shared
    columns, plus entry j of the bias row, clamped below by the float word of zero. The blocks' leading unit axis is
    read at 0, the one bias row is repeated over the 1024 rows, and the narrowing of the format changes nothing. -/
theorem hidden_apply (x0 : Vec Ideal S1x1024x1024 .bf16) (x1 : Vec Ideal S1x512x1024 .bf16) (x2 : Vec Ideal S1x1x512 .f32)
    (h0 : S1x1024x1024.ShapeCasts S1024x1024) (h1 : S1x512x1024.ShapeCasts S512x1024) (h2 : S1x1x512.ShapeCasts S1x512)
    (hb : S1x512.Broadcasts S1024x512) (ht : FTy.bits .bf16 < FTy.bits .f32) (r : Fin 1024) (j : Fin 512) :
    (truncf .bf16
        (maximumf
          (addf
            (matmul dot_S1024x1024_S512x1024_S1024x512_1_1_0_0_n_n none
              (shapeCast S1024x1024 x0 h0 : FVec Ideal S1024x1024 .bf16)
              (shapeCast S512x1024 x1 h1 : FVec Ideal S512x1024 .bf16) (constant S1024x512 .f32 0x00000000#32))
            (broadcastTo S1024x512 (shapeCast S1x512 x2 h2 : FVec Ideal S1x512 .f32) hb))
          (broadcast S1024x512 (FloatOps.ofBits .f32 0x00000000#32)))
        ht : FVec Ideal S1024x512 .bf16) (ix2 r j)
      = max ((∑ q : Fin 1024, x0 (ix3 (0 : Fin 1) r q) * x1 (ix3 (0 : Fin 1) j q)) + x2 (ix3 (0 : Fin 1) (0 : Fin 1) j))
          Cert.Spec.zeroWord := by
  refine (truncf_apply (ψ := .bf16) _ ht _).trans ?_
  refine (maximumf_apply _ _ _).trans ?_
  refine congrArg₂ max ?_ rfl
  refine (addf_apply _ _ _).trans ?_
  refine congrArg₂ (· + ·) ?_ ?_
  · refine (Ideal.matmul_constant_zero_apply _ none _ _ _).trans ?_
    refine (contract_first _ _ r j).trans ?_
    refine Finset.sum_congr rfl fun q _ => ?_
    refine congrArg₂ (· * ·) ?_ ?_
    · exact shapeCast_1ab_ab_apply x0 h0 r q
    · exact shapeCast_1ab_ab_apply x1 h1 j q
  · refine (broadcastTo_1b_ab_apply _ hb r j).trans ?_
    exact shapeCast_1ab_ab_apply x2 h2 (0 : Fin 1) j

/-- The accumulating store at (r, o): the running total there plus, over the 512 hidden units j of the tile, the
    hidden tile at (r, j) times the second-layer weight at (j, o). -/
theorem pay2_apply (x0 : Vec Ideal S1x1024x1024 .bf16) (x1 : Vec Ideal S1x512x1024 .bf16) (x2 : Vec Ideal S1x1x512 .f32)
    (x3 : Vec Ideal S1x512x1024 .bf16) (acc : Vec Ideal S1024x1024 .f32) (r o : Fin 1024) :
    k0_pay2 (F := Ideal) x0 x1 x2 x3 acc (ix2 r o)
      = acc (ix2 r o) + ∑ j : Fin 512,
          max ((∑ q : Fin 1024, x0 (ix3 (0 : Fin 1) r q) * x1 (ix3 (0 : Fin 1) j q)) + x2 (ix3 (0 : Fin 1) (0 : Fin 1) j)) Cert.Spec.zeroWord
            * x3 (ix3 (0 : Fin 1) j o) := by
  unfold k0_pay2
  refine (congrFun (shapeCast_self _ _) _).trans ?_
  refine (addf_apply _ _ _).trans ?_
  refine congrArg (acc (ix2 r o) + ·) ?_
  refine (Ideal.matmul_constant_zero_apply _ none _ _ _).trans ?_
  refine (contract_second _ _ r o).trans ?_
  refine Finset.sum_congr rfl fun j _ => ?_
  refine congrArg₂ (· * ·) ?_ ?_
  · exact hidden_apply x0 x1 x2 _ _ _ _ _ r j
  · exact shapeCast_1ab_ab_apply x3 _ j o

/-- The final store at (u, r, o): the running total at (r, o) plus entry o of the second bias row; the one bias row is
    repeated over the 1024 rows and the result gains a leading unit axis. -/
theorem pay3_apply (acc : Vec Ideal S1024x1024 .f32) (x4 : Vec Ideal S1x1x1024 .f32) (u : Fin 1) (r o : Fin 1024) :
    k0_pay3 (F := Ideal) acc x4 (ix3 u r o) = acc (ix2 r o) + x4 (ix3 (0 : Fin 1) (0 : Fin 1) o) := by
  unfold k0_pay3
  refine (shapeCast_ab_1ab_apply _ _ u r o).trans ?_
  refine (addf_apply _ _ _).trans ?_
  refine congrArg (acc (ix2 r o) + ·) ?_
  refine (broadcastTo_1b_ab_apply _ _ r o).trans ?_
  exact shapeCast_1ab_ab_apply x4 _ (0 : Fin 1) o

end Cert.KernelIdeal.Pay
end
-- ==== Proof.Total.lean ====
/-
  The running total the kernel keeps in its scratch block, as a sum.

  Over a run of eight consecutive grid points (one expert, one block of 1024 token rows, the hidden tiles 0 … 7) the
  scratch block is reset at the first point and every point adds its tile's contribution: after the point at offset
  d of the run the scratch holds, at entry (r, o), zero plus the sum over the points at offsets 0 … d of
  Σ_{j < 512} hid (e, c, k) · W2 (e, k, o) with k the tile's unit j — the fold of a running sum, read entry by entry.
-/
import proofs.«178781_j1726576856628_2_alg».proof.Proof.Gen.KernelIdeal.Value
import proofs.«178781_j1726576856628_2_alg».proof.Proof.Spec
import proofs.«178781_j1726576856628_2_alg».proof.Proof.Pieces
import proofs.«178781_j1726576856628_2_alg».proof.Proof.Blocks
import proofs.«178781_j1726576856628_2_alg».proof.Proof.Payload
import Idealize.ShloMosaic.Lib.Pipeline.Value
import Idealize.ShloMosaic.Lib.ValueIdx

noncomputable section

namespace Cert.KernelIdeal.Total

open Cert.KernelIdeal Cert.KernelIdeal.Gen Idealize.ShloMosaic Idealize.ShloMosaic.TcCoe Idealize.SL.Sem
open Idealize.ShloMosaic.ValueIdx Cert.KernelIdeal.Blocks
open Idealize.ShloMosaic.Pipeline (Dat)

variable (m : (ℓ : Loc nD τ sig) → Buf (Elt Ideal) ℓ)

/-- The five argument arrays on core `c`, as arrays of extended reals. -/
abbrev aX (c : Dev nD) : Cert.Spec.SX.Idx → EReal := m ((c : Thread nD τ).loc main_arg0)
abbrev aW1 (c : Dev nD) : Cert.Spec.SW.Idx → EReal := m ((c : Thread nD τ).loc main_arg1)
abbrev aB1 (c : Dev nD) : Cert.Spec.SB1.Idx → EReal := m ((c : Thread nD τ).loc main_arg2)
abbrev aW2 (c : Dev nD) : Cert.Spec.SW.Idx → EReal := m ((c : Thread nD τ).loc main_arg3)
abbrev aB2 (c : Dev nD) : Cert.Spec.SB2.Idx → EReal := m ((c : Thread nD τ).loc main_arg4)

/-- What grid point `n` adds to entry `i` of the running total: its 512 hidden units' contributions. -/
def addend (c : Dev nD) (n : ℕ) (i : S1024x1024.Idx) : EReal :=
  ∑ j : Fin 512, Cert.Spec.term (aX m c) (aW1 m c) (aB1 m c) (aW2 m c)
    (expertOf n) (rowOf n (i 0)) (i 1) (Cert.Spec.tileUnit n j)

/-- The accumulating store at point `t`, on the point's blocks: what the scratch held plus the point's addend. -/
theorem tile_apply (c : Dev nD) (t : Fin cfg0.N) (acc : Vec Ideal S1024x1024 .f32) (r o : Fin 1024) :
    k0_pay2 (F := Ideal) (iblk m c 0 t) (iblk m c 1 t) (iblk m c 2 t) (iblk m c 3 t) acc (ix2 r o)
      = acc (ix2 r o) + addend m c t.val (ix2 r o) := by
  refine (Cert.KernelIdeal.Pay.pay2_apply (iblk m c 0 t) (iblk m c 1 t) (iblk m c 2 t) (iblk m c 3 t) acc r o).trans ?_
  refine congrArg (acc (ix2 r o) + ·) (Finset.sum_congr rfl fun j _ => ?_)
  show _ = max ((∑ q : Fin 1024, aX m c (ix3 (expertOf t.val) (rowOf t.val r) q)
        * aW1 m c (ix3 (expertOf t.val) (Cert.Spec.tileUnit t.val j) q))
      + aB1 m c (ix2 (expertOf t.val) (Cert.Spec.tileUnit t.val j))) Cert.Spec.zeroWord
    * aW2 m c (ix3 (expertOf t.val) (Cert.Spec.tileUnit t.val j) o)
  rw [blk2 m c t 0 0 j, blk3 m c t 0 j o]
  refine congrArg (fun s => max (s + _) _ * _) (Finset.sum_congr rfl fun q _ => ?_)
  rw [blk0 m c t 0 r q, blk1 m c t 0 j q]

/-- At the first point of a run the scratch ends at zero plus the point's addend. -/
theorem reset_apply (c : Dev nD) (n : ℕ) (hb : n < cfg0.N) (h0 : n % 8 = 0) (acc : Vec Ideal S1024x1024 .f32)
    (i : S1024x1024.Idx) : Value.scAt0_0 m c n hb acc i = 0 + addend m c n i := by
  obtain ⟨r, o, rfl⟩ : ∃ (r o : Fin 1024), i = ix2 r o := ⟨i 0, i 1, eq_ix2 i⟩
  have h1 : ¬n % 8 = 7 := by omega
  unfold Value.scAt0_0
  rw [dif_pos h0, dif_neg h1]
  refine (congrFun (Cert.KernelIdeal.Pieces.scratch_A (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))) (ix2 r o)).trans ?_
  refine (tile_apply m c (⟨n, hb⟩ : Fin cfg0.N) (k0_pay1 (F := Ideal)) r o).trans ?_
  rw [Cert.KernelIdeal.Pay.pay1_apply]

/-- At every other point it ends at what the point before left plus the point's addend. -/
theorem step_apply (c : Dev nD) (n : ℕ) (hb : n < cfg0.N) (h0 : ¬n % 8 = 0) (acc : Vec Ideal S1024x1024 .f32)
    (i : S1024x1024.Idx) : Value.scAt0_0 m c n hb acc i = acc i + addend m c n i := by
  obtain ⟨r, o, rfl⟩ : ∃ (r o : Fin 1024), i = ix2 r o := ⟨i 0, i 1, eq_ix2 i⟩
  unfold Value.scAt0_0
  rw [dif_neg h0]
  by_cases h1 : n % 8 = 7
  · rw [dif_pos h1]
    refine (congrFun (Cert.KernelIdeal.Pieces.scratch_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc) (ix2 r o)).trans ?_
    exact tile_apply m c (⟨n, hb⟩ : Fin cfg0.N) acc r o
  · rw [dif_neg h1]
    refine (congrFun (Cert.KernelIdeal.Pieces.scratch_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc) (ix2 r o)).trans ?_
    exact tile_apply m c (⟨n, hb⟩ : Fin cfg0.N) acc r o

/-- The scratch after point `t`: zero plus the addends of the run's points up to `t`. -/
theorem scratch_after (c : Dev nD) (t : Fin cfg0.N) (i : S1024x1024.Idx) :
    (outsAt0 m c t.val t.isLt).2 i = 0 + ∑ s ∈ Finset.range (t.val % 8 + 1), addend m c (8 * (t.val / 8) + s) i := by
  rw [Value.soutsAt0_0_eq m c t]
  have hN : cfg0.N = 128 := N_0
  exact Pipeline.accAt_add_apply (fun n h => Value.scAt0_0 m c n h (VS0_0.read (Elt Ideal) VS0_0.junk)) (Value.scAt0_0 m c)
    (fun _ => 0) (addend m c) (8 * (t.val / 8)) 7
    (fun h i => reset_apply m c _ h (Nat.mul_mod_right 8 _) _ i)
    (fun n h acc i hlt hle => step_apply m c n h (by omega) acc i)
    (t.val % 8) (by omega) _ i

end Cert.KernelIdeal.Total

end
-- ==== Proof.Final.lean ====
/-
  The kernel's result array is the specification of its argument arrays.

  Only the last point of each run of eight writes its output block back. There the body stores the running total plus
  the second layer's bias row, and the running total is by then the sum over all eight hidden tiles, that is over all
  4096 hidden units: block (e, c-block) of the result is block (e, c-block) of G. The sixteen such blocks tile the
  [8, 2048, 1024] array, so the array ends holding G.
-/
import proofs.«178781_j1726576856628_2_alg».proof.Proof.Total

noncomputable section

namespace Cert.KernelIdeal.Final

open Cert.KernelIdeal Cert.KernelIdeal.Gen Idealize.ShloMosaic Idealize.ShloMosaic.TcCoe Idealize.SL.Sem
open Idealize.ShloMosaic.ValueIdx Cert.KernelIdeal.Blocks Cert.KernelIdeal.Total
open Idealize.ShloMosaic.Pipeline (Dat)

variable (m : (ℓ : Loc nD τ sig) → Buf (Elt Ideal) ℓ) (ρ : Dev nD → PrngReg)

/-- The specification at core `c`'s argument arrays. -/
abbrev Gm (c : Dev nD) : S8x2048x1024.Idx → EReal :=
  Cert.Spec.G (aX m c) (aW1 m c) (aB1 m c) (aW2 m c) (aB2 m c)

/-- The eight addends of the run that ends at point `t` make up the whole sum over the 4096 hidden units. -/
theorem run_total (c : Dev nD) (t : Fin cfg0.N) (h7 : t.val % 8 = 7) (r o : Fin 1024) :
    ∑ s ∈ Finset.range 8, addend m c (8 * (t.val / 8) + s) (ix2 r o)
      = ∑ k : Fin 4096, Cert.Spec.term (aX m c) (aW1 m c) (aB1 m c) (aW2 m c) (expertOf t.val) (rowOf t.val r) o k := by
  rw [Cert.Spec.hidden_by_tiles]
  refine Finset.sum_congr rfl fun s hs => ?_
  have hs8 : s < 8 := Finset.mem_range.mp hs
  have e1 : expertOf (8 * (t.val / 8) + s) = expertOf t.val :=
    Fin.ext (by show (8 * (t.val / 8) + s) / 16 % 8 = t.val / 16 % 8; omega)
  have e2 : rowOf (8 * (t.val / 8) + s) r = rowOf t.val r :=
    Fin.ext (by show ((8 * (t.val / 8) + s) / 8 % 2) * 1024 + r.val = (t.val / 8 % 2) * 1024 + r.val; omega)
  have e3 : ∀ j : Fin 512, Cert.Spec.tileUnit (8 * (t.val / 8) + s) j = Cert.Spec.tileUnit s j := fun j =>
    Fin.ext (by show ((8 * (t.val / 8) + s) % 8) * 512 + j.val = (s % 8) * 512 + j.val; omega)
  show ∑ j : Fin 512, Cert.Spec.term (aX m c) (aW1 m c) (aB1 m c) (aW2 m c) (expertOf (8 * (t.val / 8) + s))
      (rowOf (8 * (t.val / 8) + s) r) o (Cert.Spec.tileUnit (8 * (t.val / 8) + s) j) = _
  rw [e1, e2]
  exact Finset.sum_congr rfl fun j _ => by rw [e3 j]

/-- At a point that ends a run, the output block is the running total plus the bias row. -/
theorem out_after (c : Dev nD) (t : Fin cfg0.N) (h0 : ¬t.val % 8 = 0) (h7 : t.val % 8 = 7) :
    (outsAt0 m c t.val t.isLt).1 = k0_pay3 (F := Ideal) (outsAt0 m c t.val t.isLt).2 (iblk m c 4 t) := by
  rw [outsAt0_C m c t h0 h7]
  dsimp only
  refine (Cert.KernelIdeal.Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h7) (iblk m c 0 t) (iblk m c 1 t) (iblk m c 2 t) (iblk m c 3 t) (iblk m c 4 t) (outsAt0 m c (t.val - 1) (Nat.lt_of_le_of_lt (Nat.sub_le _ _) t.isLt)).2).trans ?_
  refine congrArg (fun a => k0_pay3 (F := Ideal) a (iblk m c 4 t)) ?_
  exact (Cert.KernelIdeal.Pieces.scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h7) (iblk m c 0 t) (iblk m c 1 t) (iblk m c 2 t) (iblk m c 3 t) (iblk m c 4 t) (outsAt0 m c (t.val - 1) (Nat.lt_of_le_of_lt (Nat.sub_le _ _) t.isLt)).2).symm

/-- What a point that ends a run writes back is its block of the specification. -/
theorem flushed_eq (c : Dev nD) (t : Fin cfg0.N) (hf : (cfg0.win 5).flush t = true) :
    (dats m 0 c).flushed 5 t = ((cfg0.win 5).blk t).view.read (Elt Ideal) (Gm m c) := by
  have h7 : t.val % 8 = 7 := (flush0_5 t).mp hf
  have h0 : ¬t.val % 8 = 0 := by omega
  rw [Value.flushed5]
  funext y
  obtain ⟨u, r, o, rfl⟩ : ∃ (u : Fin 1) (r o : Fin 1024), y = ix3 u r o := ⟨y 0, y 1, y 2, eq_ix3 y⟩
  show (outsAt0 m c t.val t.isLt).1 (ix3 u r o) = _
  rw [out_after m c t h0 h7]
  refine (Cert.KernelIdeal.Pay.pay3_apply (outsAt0 m c t.val t.isLt).2 (iblk m c 4 t) u r o).trans ?_
  rw [scratch_after m c t (ix2 r o), blk4 m c t 0 0 o, h7, zero_add, run_total m c t h7 r o, View.read_apply]
  have hu := u.isLt
  have he : ((cfg0.win 5).blk t).view.emb (ix3 u r o) = (ix3 (expertOf t.val) (rowOf t.val r) o : S8x2048x1024.Idx) := by
    obtain ⟨-, -, -, -, -, e0, e1, e2⟩ := idx_facts t
    funext a; apply Fin.ext
    match a with
    | ⟨0, _⟩ => show win0_5.index t 0 * 1 + 1 * u.val = t.val / 16 % 8; rw [e0]; omega
    | ⟨1, _⟩ => show win0_5.index t 1 * 1024 + 1 * r.val = (t.val / 8 % 2) * 1024 + r.val; rw [e1]; omega
    | ⟨2, _⟩ => show win0_5.index t 2 * 1024 + 1 * o.val = o.val; rw [e2]; omega
  rw [he]
  exact (Cert.Spec.G_apply (aX m c) (aW1 m c) (aB1 m c) (aW2 m c) (aB2 m c) (expertOf t.val) (rowOf t.val r) o).symm

/-- Every entry of the result array is in the block of some point that ends a run. -/
theorem cover (i : S8x2048x1024.Idx) :
    ∃ t : Fin cfg0.N, (cfg0.win 5).flush t = true ∧ i ∈ ((cfg0.win 5).blk t).view.set := by
  have hN : cfg0.N = 128 := N_0
  have h0 : (i 0).val < 8 := (i 0).isLt
  have h1 : (i 1).val < 2048 := (i 1).isLt
  have h2 : (i 2).val < 1024 := (i 2).isLt
  have hb : (i 0).val * 16 + (i 1).val / 1024 * 8 + 7 < cfg0.N := by omega
  refine ⟨⟨(i 0).val * 16 + (i 1).val / 1024 * 8 + 7, hb⟩, (flush0_5 _).mpr (by show ((i 0).val * 16 + (i 1).val / 1024 * 8 + 7) % 8 = 7; omega), ?_⟩
  obtain ⟨-, -, -, -, -, e0, e1, e2⟩ := idx_facts ⟨(i 0).val * 16 + (i 1).val / 1024 * 8 + 7, hb⟩
  show i ∈ ((View.whole main_v5).slice (win0_5.rect ⟨(i 0).val * 16 + (i 1).val / 1024 * 8 + 7, hb⟩)).set
  rw [View.set_slice_whole, Rect.mem_set_unit]
  intro a
  match a with
  | ⟨0, _⟩ =>
    show win0_5.index ⟨(i 0).val * 16 + (i 1).val / 1024 * 8 + 7, hb⟩ 0 * 1 ≤ (i 0).val ∧ (i 0).val < win0_5.index ⟨(i 0).val * 16 + (i 1).val / 1024 * 8 + 7, hb⟩ 0 * 1 + 1
    rw [e0]; show ((i 0).val * 16 + (i 1).val / 1024 * 8 + 7) / 16 % 8 * 1 ≤ (i 0).val ∧ (i 0).val < ((i 0).val * 16 + (i 1).val / 1024 * 8 + 7) / 16 % 8 * 1 + 1; omega
  | ⟨1, _⟩ =>
    show win0_5.index ⟨(i 0).val * 16 + (i 1).val / 1024 * 8 + 7, hb⟩ 1 * 1024 ≤ (i 1).val ∧ (i 1).val < win0_5.index ⟨(i 0).val * 16 + (i 1).val / 1024 * 8 + 7, hb⟩ 1 * 1024 + 1024
    rw [e1]; show ((i 0).val * 16 + (i 1).val / 1024 * 8 + 7) / 8 % 2 * 1024 ≤ (i 1).val ∧ (i 1).val < ((i 0).val * 16 + (i 1).val / 1024 * 8 + 7) / 8 % 2 * 1024 + 1024; omega
  | ⟨2, _⟩ =>
    show win0_5.index ⟨(i 0).val * 16 + (i 1).val / 1024 * 8 + 7, hb⟩ 2 * 1024 ≤ (i 2).val ∧ (i 2).val < win0_5.index ⟨(i 0).val * 16 + (i 1).val / 1024 * 8 + 7, hb⟩ 2 * 1024 + 1024
    rw [e2]; omega

/-- So the result array ends holding the specification of the argument arrays. -/
theorem final (c : Dev nD) : (dats m 0 c).arrAt 5 cfg0.N = Gm m c :=
  (dats m 0 c).arrAt_eq_of_cover 5 (Gm m c) (flushed_eq m c) cover

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v5) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Final

end
-- ==== Proof.lean ====
/-
  Per-expert feed-forward network: a Pallas kernel that walks the hidden axis in tiles, keeping a running total in a
  scratch block, against the plain formula  relu (x · W1ᵀ + b1) · W2 + b2  computed by two whole contractions.

  On the extended reals both are  G (e, c, o) = Σ_{k < 4096} max (Σ_{j < 1024} X (e, c, j) · W1 (e, k, j) + B1 (e, k)) 0
  · W2 (e, k, o) + B2 (e, o):  the kernel adds the 4096 terms tile by tile into a total that starts at zero, the
  reference adds them in one sum, and addition of extended reals is associative and commutative with zero neutral, so
  no finiteness of the inputs is used. Changes of float format are the identity there, and the ideal pass rewrote
  nothing, so the preservation claim is trivial.
-/
import proofs.«178781_j1726576856628_2_alg».proof.Defs
import proofs.«178781_j1726576856628_2_alg».proof.Proof.Gen.Kernel
import proofs.«178781_j1726576856628_2_alg».proof.Proof.Gen.Kernel.Frame
import proofs.«178781_j1726576856628_2_alg».proof.Proof.Gen.KernelIdeal
import proofs.«178781_j1726576856628_2_alg».proof.Proof.Gen.KernelIdeal.Frame
import proofs.«178781_j1726576856628_2_alg».proof.Proof.Gen.KernelIdeal.Value
import proofs.«178781_j1726576856628_2_alg».proof.Proof.Gen.ReferenceIdeal
import proofs.«178781_j1726576856628_2_alg».proof.Proof.Gen.ReferenceIdeal.Run
import proofs.«178781_j1726576856628_2_alg».proof.Proof.Gen.ReferenceIdeal.Read
import proofs.«178781_j1726576856628_2_alg».proof.Proof.Gen.Pre_finite_inputs
import proofs.«178781_j1726576856628_2_alg».proof.Proof.RefIsG
import proofs.«178781_j1726576856628_2_alg».proof.Proof.Final
import Idealize.ShloMosaic.Adequacy
import Idealize.ShloMosaic.Init

noncomputable section

namespace Cert.Proof

open Idealize.ShloMosaic Idealize.ShloMosaic.TcCoe Idealize.SL.Sem

/-- The three programs run to the end, fault-free, with their argument arrays unchanged. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result array at `G` of the argument arrays, which agree. -/
theorem algebraic : Cert.algebraic_KernelIdeal_ReferenceIdeal := by
  intro m ρ m' ρ' _ hagree
  refine ⟨fun c => Cert.KernelIdeal.Final.Gm m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.RefG.ref_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
